-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S262144x512 .f32) (main_arg1 : IVec S64 32) (main_arg2 : FVec F S64x512x512 .f32) (main_arg3 : FVec F S64x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S64x512x512 .f32 := Host.absf main_arg2
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S64x4096x512 : Shape := ⟨3, ![64, 4096, 512]⟩
abbrev S64x1x512 : Shape := ⟨3, ![64, 1, 512]⟩
abbrev S1x2048x512 : Shape := ⟨3, ![1, 2048, 512]⟩
abbrev S1x512x512 : Shape := ⟨3, ![1, 512, 512]⟩
abbrev S1x1x512 : Shape := ⟨3, ![1, 1, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S64, .i32⟩
  | .hbm, ⟨2, _⟩ => ⟨S64x512x512, .f32⟩
  | .hbm, ⟨3, _⟩ => ⟨S64x512, .f32⟩
  | .hbm, ⟨4, _⟩ => ⟨S64x4096x512, .f32⟩
  | .hbm, ⟨5, _⟩ => ⟨S64x1x512, .f32⟩
  | .hbm, ⟨6, _⟩ => ⟨S64x4096x512, .f32⟩
  | .hbm, ⟨7, _⟩ => ⟨S262144x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S262144x512_S64x4096x512 : S262144x512.ShapeCasts S64x4096x512
  shapeCasts_S64x512_S64x1x512 : S64x512.ShapeCasts S64x1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  shapeCasts_S2048x512_S1x2048x512 : S2048x512.ShapeCasts S1x2048x512
  shapeCasts_S64x4096x512_S262144x512 : S64x4096x512.ShapeCasts S262144x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x4096x512.size a
  hwx0_0 : ∀ i : grid0.Coords, EltTy.bits .f32 = 32 ∨ (Rect.block (s := S64x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S64x4096x512.size a
  hwx0_3 : ∀ i : grid0.Coords, EltTy.bits .f32 = 32 ∨ (Rect.block (s := S64x4096x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S64x4096x512 : Shape := ⟨3, ![64, 4096, 512]⟩
abbrev S64x1x512 : Shape := ⟨3, ![64, 1, 512]⟩

abbrev nBuf : Space → Nat
  | .hbm => 10
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S64, .i32⟩
  | .hbm, ⟨2, _⟩ => ⟨S64x512x512, .f32⟩
  | .hbm, ⟨3, _⟩ => ⟨S64x512, .f32⟩
  | .hbm, ⟨4, _⟩ => ⟨S64x4096x512, .f32⟩
  | .hbm, ⟨5, _⟩ => ⟨S64x4096x512, .f32⟩
  | .hbm, ⟨6, _⟩ => ⟨S64x1x512, .f32⟩
  | .hbm, ⟨7, _⟩ => ⟨S64x4096x512, .f32⟩
  | .hbm, ⟨8, _⟩ => ⟨S64x4096x512, .f32⟩
  | .hbm, ⟨9, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S262144x512_S64x4096x512 : S262144x512.ShapeCasts S64x4096x512
  bcast_S64x512_S64x1x512_0_2 : S64x512.BroadcastsInDim S64x1x512 (![0, 2] : Fin 2 → Fin S64x1x512.rank)
  bcast_S64x1x512_S64x4096x512_0_1_2 : S64x1x512.BroadcastsInDim S64x4096x512 (![0, 1, 2] : Fin 3 → Fin S64x4096x512.rank)
  shapeCasts_S64x4096x512_S262144x512 : S64x4096x512.ShapeCasts S262144x512
  dot_S64x4096x512_S64x512x512_S64x4096x512_2_2_1_1_0_0_wf : DotDims.WF S64x4096x512 S64x512x512 S64x4096x512 [2] [2] [1] [1] [0] [0]

variable [Facts₀]

def dot_S64x4096x512_S64x512x512_S64x4096x512_2_2_1_1_0_0 : DotDims S64x4096x512 S64x512x512 S64x4096x512 where
  lhsContracting := [2]
  rhsContracting := [2]
  lhsNonContracting := [1]
  rhsNonContracting := [1]
  lhsBatch := [0]
  rhsBatch := [0]
  wf := dot_S64x4096x512_S64x512x512_S64x4096x512_2_2_1_1_0_0_wf

class Facts : Prop extends Facts₀ where

variable [Facts]
-- ==== Proof.Spec.lean ====
/-
  What both programs compute, as one function of the argument arrays.

  The tokens come grouped by expert: token-slot `e * 4096 + t` of the flat `[262144, 512]` input is token `t` of
  expert `e`, so the flat array re-laid row-major as `[64, 4096, 512]` has expert, token and feature as its three
  coordinates. Expert `e` applies its own affine map: output feature `o` of its token `t` is the inner product of
  the token's 512 features with row `o` of the expert's `[512, 512]` weight, plus entry `o` of the expert's bias,

      y[e, t, o] = Σ_k x[e, t, k] · w[e, o, k] + b[e, o],

  and the result is re-laid back to `[262144, 512]`. Over the extended reals every operation here is the exact one, so
  this is the value whatever the order in which a program adds the 512 products, however it tiles the tokens, and in
  whichever narrower format it holds the factors on the way.
-/
import Idealize.ShloMosaic.PureOps.Ideal
import Idealize.ShloMosaic.Lib.ValueIdx
import Idealize.ShloMosaic.Lib.Pipeline.Value

noncomputable section

namespace Cert.GroupedLinear

open Idealize.ShloMosaic Idealize.ShloMosaic.ValueIdx

/-- Expert × token × feature. -/
abbrev Tok : Shape := ⟨3, ![64, 4096, 512]⟩
/-- Expert × output feature × input feature. -/
abbrev Wgt : Shape := ⟨3, ![64, 512, 512]⟩
/-- Expert × one row × output feature: the bias with a unit token axis. -/
abbrev BiasRow : Shape := ⟨3, ![64, 1, 512]⟩
/-- Token-slot × feature: the flat layout of the input and of the result. -/
abbrev Flat : Shape := ⟨2, ![262144, 512]⟩
/-- Expert × output feature. -/
abbrev Bias : Shape := ⟨2, ![64, 512]⟩

/-- Each expert's affine map applied to its own tokens: at (e, t, o) the inner product of token (e, t) with weight
    row (e, o), plus the bias entry (e, 0, o). -/
def expertLinear (x : FVec Ideal Tok .f32) (w : FVec Ideal Wgt .f32) (b : FVec Ideal BiasRow .f32) : FVec Ideal Tok .f32 :=
  fun i => (∑ k : Fin 512, x (ix3 (i 0) (i 1) k) * w (ix3 (i 0) (i 2) k)) + b (ix3 (i 0) (0 : Fin 1) (i 2))

/-- The whole computation on the flat arrays: group the token-slots by expert, apply the experts' maps, flatten. -/
def groupedLinear (hx : Flat.ShapeCasts Tok) (hb : Bias.ShapeCasts BiasRow) (ho : Tok.ShapeCasts Flat)
    (x : FVec Ideal Flat .f32) (w : FVec Ideal Wgt .f32) (b : FVec Ideal Bias .f32) : FVec Ideal Flat .f32 :=
  shapeCast Flat (expertLinear (shapeCast Tok x hx) w (shapeCast BiasRow b hb)) ho

/-- The bias given its unit token axis reads, at (e, 0, o), the bias at (e, o): the two row-major positions are both
    `e * 512 + o`. -/
theorem biasRow_apply (b : FVec Ideal Bias .f32) (hb : Bias.ShapeCasts BiasRow) (e : Fin 64) (u : Fin 1) (o : Fin 512) :
    shapeCast BiasRow b hb (ix3 e u o) = b (ix2 e o) :=
  shapeCast_apply b hb _ _ (by
    have hu : u.val = 0 := by omega
    rw [Shape.rowMajor_val_two, Shape.rowMajor_val_three]
    show e.val * 512 + o.val = (e.val * 1 + u.val) * 512 + o.val
    rw [hu, Nat.mul_one, Nat.add_zero])

end Cert.GroupedLinear

end
-- ==== Proof.Body.lean ====
/-
  One grid point's arithmetic, read at an index.

  At a grid point the kernel holds a block of 2048 tokens of one expert (`[1, 2048, 512]`), that expert's whole weight
  (`[1, 512, 512]`) and its bias row (`[1, 1, 512]`). It drops the leading unit axes, multiplies the token block by the
  transposed weight into a zero accumulator (contracting the feature axis of both), adds the bias row broadcast over
  the tokens, and puts the unit axis back. Over the extended reals the narrowing of the factors is the identity and
  the zero accumulator adds nothing, so entry (r, o) of the block is the plain sum of the 512 products of token `r`'s
  features with weight row `o`, plus bias entry `o`.
-/
import proofs.«147562_j8383776161863_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The block product's dimension record: tokens × features against outputs × features, features contracted. -/
abbrev D := dot_S2048x512_S512x512_S2048x512_1_1_0_0_n_n

/-- The token operand is read at the output's row. -/
theorem lhs_row (j : S2048x512.Idx) (q : D.contr.Idx) : (D.lhsIdx j q 0).val = (j 0).val := by
  unfold DotDims.lhsIdx
  rw [dif_neg (show ¬(0 : Fin S2048x512.rank) ∈ D.lhsBatch by decide),
    dif_pos (show (0 : Fin S2048x512.rank) ∈ D.lhsNonContracting by decide)]
  rfl

/-- The token operand's feature is the contraction index. -/
theorem lhs_feat (j : S2048x512.Idx) (q : D.contr.Idx) : (D.lhsIdx j q 1).val = (q ⟨0, by decide⟩).val :=
  D.lhsIdx_val_of_single rfl j q

/-- The weight operand's row is the output's column. -/
theorem rhs_row (j : S2048x512.Idx) (q : D.contr.Idx) : (D.rhsIdx j q 0).val = (j 1).val := by
  unfold DotDims.rhsIdx
  rw [dif_neg (show ¬(0 : Fin S512x512.rank) ∈ D.rhsBatch by decide),
    dif_pos (show (0 : Fin S512x512.rank) ∈ D.rhsNonContracting by decide)]
  rfl

/-- The weight operand's feature is the contraction index. -/
theorem rhs_feat (j : S2048x512.Idx) (q : D.contr.Idx) : (D.rhsIdx j q 1).val = (q ⟨0, by decide⟩).val :=
  D.rhsIdx_val_of_single rfl j q

/-- The block product into the zero accumulator, at (r, o): the sum over the 512 features of token `r`'s feature
    times weight row `o`'s. -/
theorem product_apply (a : FVec Ideal S2048x512 .bf16) (b : FVec Ideal S512x512 .bf16) (r : Fin 2048) (o : Fin 512) :
    matmul D none a b (constant (F := Ideal) S2048x512 .f32 0x00000000#32) (ix2 r o)
      = ∑ k : Fin 512, a (ix2 r k) * b (ix2 o k) := by
  refine (Ideal.matmul_constant_zero_apply D none a b (ix2 r o)).trans ?_
  rw [← Equiv.sum_comp (contrEquiv1 D 512 rfl rfl).symm]
  refine Finset.sum_congr rfl fun k _ => ?_
  have hk := contrEquiv1_symm_val D 512 rfl rfl k
  have el : D.lhsIdx (ix2 r o) ((contrEquiv1 D 512 rfl rfl).symm k) = ix2 r k := funext fun ax => Fin.ext (by
    match ax with
    | ⟨0, _⟩ => exact lhs_row _ _
    | ⟨1, _⟩ => exact (lhs_feat _ _).trans hk)
  have er : D.rhsIdx (ix2 r o) ((contrEquiv1 D 512 rfl rfl).symm k) = ix2 o k := funext fun ax => Fin.ext (by
    match ax with
    | ⟨0, _⟩ => exact rhs_row _ _
    | ⟨1, _⟩ => exact (rhs_feat _ _).trans hk)
  rw [el, er]

/-- WHAT THE BODY STORES, at (0, r, o) of its output block: token `r`'s inner product with weight row `o`, plus
    bias entry `o`. -/
theorem stored_apply (x : Vec Ideal S1x2048x512 .f32) (w : Vec Ideal S1x512x512 .f32) (b : Vec Ideal S1x1x512 .f32)
    (u : Fin 1) (r : Fin 2048) (o : Fin 512) :
    k0_pay1 (F := Ideal) x w b (ix3 u r o)
      = (∑ k : Fin 512, x (ix3 (0 : Fin 1) r k) * w (ix3 (0 : Fin 1) o k)) + b (ix3 (0 : Fin 1) (0 : Fin 1) o) := by
  unfold k0_pay1
  refine (shapeCast_ab_1ab_apply _ _ u r o).trans ?_
  refine (addf_apply _ _ (ix2 r o)).trans ?_
  refine congrArg₂ (· + ·) ?_ ?_
  · refine (product_apply _ _ r o).trans ?_
    refine Finset.sum_congr rfl fun k _ => ?_
    exact congrArg₂ (· * ·) (shapeCast_1ab_ab_apply x _ r k) (shapeCast_1ab_ab_apply w _ o k)
  · refine (broadcastTo_1b_ab_apply _ _ r o).trans ?_
    exact shapeCast_1ab_ab_apply b _ (0 : Fin 1) o

end Cert.KernelIdeal.Body

end
-- ==== Proof.Region.lean ====
/-
  From grid points to the region's whole output array.

  The grid has 64 × 2 points: point (e, h) works on tokens `2048·h … 2048·h + 2047` of expert `e`. Its token block and
  its output block sit at block index (e, h, 0) of the `[64, 4096, 512]` arrays, its weight and bias blocks at (e, 0, 0)
  of theirs. So element (0, r, o) of the point's output block is element (e, 2048·h + r, o) of the output array, the
  token it reads is (e, 2048·h + r, ·) of the token array, and the weight row and bias entry are the expert's own:
  what the point writes back is the block of `expertLinear` — one function of the arrays the region finds — that the
  output window names there. The 128 blocks tile the output array (token `t` of expert `e` is in the block of point
  (e, t / 2048)), so after the region the array is that function everywhere.
-/
import proofs.«147562_j8383776161863_2_alg».proof.Proof.Gen.KernelIdeal.Frame
import proofs.«147562_j8383776161863_2_alg».proof.Proof.Spec
import proofs.«147562_j8383776161863_2_alg».proof.Proof.Body
import Idealize.ShloMosaic.Lib.Pipeline.Value
import Idealize.ShloMosaic.Lib.ValueIdx

set_option maxRecDepth 16384

noncomputable section

namespace Cert.KernelIdeal.Region

open Cert.KernelIdeal Cert.KernelIdeal.Gen Cert.GroupedLinear
open Idealize.ShloMosaic Idealize.ShloMosaic.TcCoe Idealize.ShloMosaic.ValueIdx Idealize.SL.Sem

variable (m : (ℓ : Loc nD τ sig) → Buf (Elt Ideal) ℓ)

/-- The body's loads and its store all start at the origin of their staging buffers. -/
theorem origin3 : (![0, 0, 0] : Fin 3 → Nat) = fun _ => 0 := funext fun a => by fin_cases a <;> rfl

/-- The printed index maps, decided over the 128 points: the token window moves with the output window and both stay
    at feature block 0; the weight and bias windows follow the output's expert coordinate and stay at 0 elsewhere;
    the output's expert coordinate is below 64 and its token-block coordinate below 2. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (2 : Fin 3) = 0
    ∧ win0_3.index t (0 : Fin 3) ≤ 63
    ∧ win0_3.index t (1 : Fin 3) ≤ 1 :=
  (by decide +kernel : ∀ t : Fin grid0.N, _)

/-- Every (expert, token half) is some point's output block. -/
theorem index_onto : ∀ (e : Fin 64) (h : Fin 2), ∃ t : Fin cfg0.N, win0_3.index t = ![e.val, h.val, 0] :=
  (by decide +kernel : ∀ (e : Fin 64) (h : Fin 2), ∃ t : Fin grid0.N, win0_3.index t = ![e.val, h.val, 0])

/-- WHAT POINT `t` WRITES BACK is the block, at the output window's place for `t`, of `expertLinear` of the token,
    weight and bias-row arrays as the region finds them. -/
theorem flushed_eq (c : Dev nD) (t : Fin cfg0.N) :
    (dats m 0 c).flushed 3 t
      = ((cfg0.win 3).blk t).view.read (Elt Ideal) (expertLinear (V m c main_v0) (V m c main_arg2) (V m c main_v1)) := by
  show (cfg0.win 3).cut (grid0.coords t) ((dats m 0 c).after 3 t) = _
  rw [after0_3]
  unfold out0_3
  rw [View.canon_unit_zero origin3]
  simp only [View.ld_unit_zero (S := S1x2048x512) origin3, View.ld_unit_zero (S := S1x512x512) origin3,
    View.ld_unit_zero (S := S1x1x512) origin3]
  obtain ⟨e0, e1, e2, f0, f1, f2, g0, g1, g2, h2, -, -⟩ := index_facts t
  funext j
  obtain ⟨u, r, o, rfl⟩ : ∃ (u : Fin 1) (r : Fin 2048) (o : Fin 512), j = ix3 u r o := ⟨j 0, j 1, j 2, eq_ix3 j⟩
  have hu : u.val = 0 := by omega
  refine (Body.stored_apply (iblk m c 0 t) (iblk m c 1 t) (iblk m c 2 t) u r o).trans ?_
  show _ = expertLinear (V m c main_v0) (V m c main_arg2) (V m c main_v1) (((cfg0.win 3).blk t).view.emb (ix3 u r o))
  unfold expertLinear
  beta_reduce
  refine congrArg₂ (· + ·) (Finset.sum_congr rfl fun k _ => congrArg₂ (· * ·) ?_ ?_) ?_
  · show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * (0 : Fin 1).val = win0_3.index t (0 : Fin 3) * 1 + 1 * u.val; omega
    | ⟨1, _⟩ => show win0_0.index t (1 : Fin 3) * 2048 + 1 * r.val = win0_3.index t (1 : Fin 3) * 2048 + 1 * r.val; omega
    | ⟨2, _⟩ => show win0_0.index t (2 : Fin 3) * 512 + 1 * k.val = k.val; omega
  · show V m c main_arg2 (((cfg0.win 1).blk t).view.emb (ix3 (0 : Fin 1) o k)) = _
    refine congrArg (V m c main_arg2) (funext fun a => Fin.ext ?_)
    match a with
    | ⟨0, _⟩ => show win0_1.index t (0 : Fin 3) * 1 + 1 * (0 : Fin 1).val = win0_3.index t (0 : Fin 3) * 1 + 1 * u.val; omega
    | ⟨1, _⟩ => show win0_1.index t (1 : Fin 3) * 512 + 1 * o.val = win0_3.index t (2 : Fin 3) * 512 + 1 * o.val; omega
    | ⟨2, _⟩ => show win0_1.index t (2 : Fin 3) * 512 + 1 * k.val = k.val; omega
  · show V m c main_v1 (((cfg0.win 2).blk t).view.emb (ix3 (0 : Fin 1) (0 : Fin 1) o)) = _
    refine congrArg (V m c main_v1) (funext fun a => Fin.ext ?_)
    match a with
    | ⟨0, _⟩ => show win0_2.index t (0 : Fin 3) * 1 + 1 * (0 : Fin 1).val = win0_3.index t (0 : Fin 3) * 1 + 1 * u.val; omega
    | ⟨1, _⟩ => show win0_2.index t (1 : Fin 3) * 1 + 1 * (0 : Fin 1).val = (0 : Fin 1).val; omega
    | ⟨2, _⟩ => show win0_2.index t (2 : Fin 3) * 512 + 1 * o.val = win0_3.index t (2 : Fin 3) * 512 + 1 * o.val; omega

/-- An index of the output array is in point `t`'s block iff each coordinate is in the block's range on its axis. -/
theorem mem_block (t : Fin cfg0.N) (i : S64x4096x512.Idx) :
    i ∈ ((cfg0.win 3).blk t).view.set
      ↔ ∀ a : Fin 3, win0_3.index t a * S1x2048x512.size a ≤ (i a).val
          ∧ (i a).val < win0_3.index t a * S1x2048x512.size a + S1x2048x512.size a := by
  show i ∈ ((View.whole main_v2).slice (win0_3.rect t)).set ↔ _
  rw [View.set_slice_whole, Rect.mem_set_unit]
  exact Iff.rfl

/-- The output blocks tile the array: token `i 1` of expert `i 0` is in the block of the point at (i 0, i 1 / 2048). -/
theorem covered (i : S64x4096x512.Idx) :
    ∃ t : Fin cfg0.N, (cfg0.win 3).flush t = true ∧ i ∈ ((cfg0.win 3).blk t).view.set := by
  have hi0 : (i 0).val < 64 := (i 0).isLt
  have hi1 : (i 1).val < 4096 := (i 1).isLt
  have hi2 : (i 2).val < 512 := (i 2).isLt
  obtain ⟨t, ht⟩ := index_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE OUTPUT ARRAY AFTER THE REGION: `expertLinear` of the arrays the region finds. -/
theorem output_eq (c : Dev nD) :
    (dats m 0 c).arrAt 3 cfg0.N = expertLinear (V m c main_v0) (V m c main_arg2) (V m c main_v1) :=
  (dats m 0 c).arrAt_eq_of_cover 3 _ (fun t _ => flushed_eq m c t) (covered)

end Cert.KernelIdeal.Region

end
-- ==== Proof.HostSide.lean ====
/-
  The lines of the kernel's host program around its one region.

  Before the region the program re-lays the flat `[262144, 512]` input as `[64, 4096, 512]` (token-slots grouped by
  expert) and gives the `[64, 512]` bias a unit token axis, `[64, 1, 512]`; the weight goes in as it is. After the region
  it re-lays the region's `[64, 4096, 512]` output back to `[262144, 512]`. Each of these is a row-major re-reading of
  one array, so the arrays the region finds, and the program's result, are shape casts of the arguments and of the
  region's output.
-/
import proofs.«147562_j8383776161863_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The token array the region finds: the input grouped by expert. -/
theorem tokens_eq (c : Dev nD) :
    (V m c main_v0 : S64x4096x512.Idx → EReal)
      = shapeCast S64x4096x512 (m ((c : Thread nD τ).loc main_arg0)) shapeCasts_S262144x512_S64x4096x512 := by
  show StableHlo.after hostOps0 (fun b => m (c, b)) (Proc.devRef .tc main_v0) = _
  after_results
  rfl

/-- The bias array the region finds: the bias with a unit token axis. -/
theorem biasRow_eq (c : Dev nD) :
    (V m c main_v1 : S64x1x512.Idx → EReal)
      = shapeCast S64x1x512 (m ((c : Thread nD τ).loc main_arg3)) shapeCasts_S64x512_S64x1x512 := by
  show StableHlo.after hostOps0 (fun b => m (c, b)) (Proc.devRef .tc main_v1) = _
  after_results
  rfl

/-- The program's result: the region's output array, flattened. -/
theorem result_eq (c : Dev nD) :
    (Pipeline.afterTail₀ cfgs (dats m) 0 (V0 m) [hostOps1] c main_v3 : S262144x512.Idx → EReal)
      = shapeCast S262144x512 ((dats m 0 c).arrAt 3 cfg0.N) shapeCasts_S64x4096x512_S262144x512 := by
  unfold Pipeline.afterTail₀
  show StableHlo.after hostOps1 _ (Proc.devRef .tc main_v3) = _
  after_results
  exact congrArg (fun x => shapeCast S262144x512 x shapeCasts_S64x4096x512_S262144x512)
    (Pipeline.withArrays_arr spec0 launch0.win.arr_inj c _ _ 3)

end Cert.KernelIdeal.HostSide

end
-- ==== Proof.KernelRun.lean ====
/-
  The kernel program's run, with its result named.

  Every weakly fair execution of the kernel's host program ends with the result array at `groupedLinear` of the
  arguments and the arguments unchanged: the region leaves `expertLinear` of the arrays it finds in its output array
  (the blocks tile it), those arrays are the re-laid input, the weight and the bias with a unit axis, and the line
  after the region flattens the output.
-/
import proofs.«147562_j8383776161863_2_alg».proof.Proof.Region
import proofs.«147562_j8383776161863_2_alg».proof.Proof.HostSide

noncomputable section

namespace Cert.KernelIdeal.KernelRun

open Cert.KernelIdeal Cert.KernelIdeal.Gen Cert.GroupedLinear
open Idealize.ShloMosaic Idealize.ShloMosaic.TcCoe Idealize.SL.Sem

variable (m : (ℓ : Loc nD τ sig) → Buf (Elt Ideal) ℓ) (ρ : Dev nD → PrngReg)

/-- What the line after the region leaves in the result buffer: `groupedLinear` of the launch contents of the arguments. -/
theorem result_eq (c : Dev nD) :
    (Pipeline.afterTail₀ cfgs (dats m) 0 (V0 m) [hostOps1] c main_v3 : S262144x512.Idx → EReal)
      = groupedLinear shapeCasts_S262144x512_S64x4096x512 shapeCasts_S64x512_S64x1x512 shapeCasts_S64x4096x512_S262144x512
          (m ((c : Thread nD τ).loc main_arg0)) (m ((c : Thread nD τ).loc main_arg2)) (m ((c : Thread nD τ).loc main_arg3)) := by
  rw [HostSide.result_eq, Region.output_eq, HostSide.tokens_eq, HostSide.biasRow_eq, V_main_arg2]
  rfl

/-- The run: the result at `groupedLinear` of the arguments, the arguments as launched. -/
theorem run : θ_run defs (onTc (τ := τ) (main (F := Ideal))) ⟨m, fun _ => 0, ρ⟩ fun r => ∀ c : Dev nD,
      r.2.mem ((c.tc : Thread nD τ).loc main_v3)
        = groupedLinear shapeCasts_S262144x512_S64x4096x512 shapeCasts_S64x512_S64x1x512 shapeCasts_S64x4096x512_S262144x512
            (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KernelRun

end
-- ==== Proof.RefSide.lean ====
/-
  The reference program is the specification.

  The reference re-lays the flat input as `[64, 4096, 512]`, takes the batched product with the weight (batch axis the
  expert, contracting the feature axis of both operands: entry (e, t, o) is the sum over k of x[e, t, k] · w[e, o, k]),
  broadcasts the bias along a new token axis, adds, and flattens. Read at an index that is `expertLinear` term for
  term: the product's operand indices are (e, t, k) and (e, o, k), and the broadcast bias at (e, t, o) is the bias at
  (e, o), which is also what the bias with a unit token axis holds at (e, 0, o).
-/
import proofs.«147562_j8383776161863_2_alg».proof.Proof.Gen.ReferenceIdeal.Read
import proofs.«147562_j8383776161863_2_alg».proof.Proof.Spec
import Idealize.ShloMosaic.Lib.ValueIdx

noncomputable section

namespace Cert.ReferenceIdeal.RefValue

open Cert.ReferenceIdeal Cert.ReferenceIdeal.Gen Cert.ReferenceIdeal.Read Cert.GroupedLinear
open Idealize.ShloMosaic Idealize.ShloMosaic.ValueIdx

/-- The reference's sum, before it is flattened, is `expertLinear` of the grouped input, the weight and the bias row. -/
theorem sum_eq (hb : Bias.ShapeCasts BiasRow) (x : FVec Ideal Flat .f32) (w : FVec Ideal Wgt .f32) (b : FVec Ideal Bias .f32) :
    val_main_v4 (F := Ideal) x w b
      = expertLinear (shapeCast Tok x shapeCasts_S262144x512_S64x4096x512) w (shapeCast BiasRow b hb) := by
  funext i
  have el : ∀ k : Fin 512, lidx_main_v1 i k = ix3 (i 0) (i 1) k := fun k => funext fun a => Fin.ext (by
    match a with | ⟨0, _⟩ => rfl | ⟨1, _⟩ => rfl | ⟨2, _⟩ => rfl)
  have er : ∀ k : Fin 512, ridx_main_v1 i k = ix3 (i 0) (i 2) k := fun k => funext fun a => Fin.ext (by
    match a with | ⟨0, _⟩ => rfl | ⟨1, _⟩ => rfl | ⟨2, _⟩ => rfl)
  have eb : idx_main_v2 (idx_main_v3 i) = ix2 (i 0) (i 2) := funext fun a => Fin.ext (by
    match a with | ⟨0, _⟩ => rfl | ⟨1, _⟩ => rfl)
  rw [val_main_v4_apply, val_main_v1_apply, val_main_v3_apply, val_main_v2_apply]
  simp only [el, er, eb]
  unfold expertLinear
  refine congrArg₂ (· + ·) rfl ?_
  exact (biasRow_apply b hb (i 0) (0 : Fin 1) (i 2)).symm

/-- The reference's result is `groupedLinear` of its arguments. -/
theorem result_eq (hb : Bias.ShapeCasts BiasRow) (x : FVec Ideal Flat .f32) (w : FVec Ideal Wgt .f32) (b : FVec Ideal Bias .f32) :
    val_main_v5 (F := Ideal) x w b
      = groupedLinear shapeCasts_S262144x512_S64x4096x512 hb shapeCasts_S64x4096x512_S262144x512 x w b := by
  unfold val_main_v5 groupedLinear
  rw [sum_eq hb]

end Cert.ReferenceIdeal.RefValue

end
-- ==== Proof.lean ====
/-
  A grouped linear layer: 64 experts, each with its own `[512, 512]` weight and `[512]` bias, applied to 262144
  token-slots that come grouped by expert, 4096 to each.

  Both programs compute, over the extended reals,

      y[e, t, o] = Σ_k x[e, t, k] · w[e, o, k] + b[e, o]        (e < 64, t < 4096, o, k < 512)

  on the input re-laid as `[64, 4096, 512]`, and flatten the result (`Cert.GroupedLinear.groupedLinear`, Proof/Spec.lean).

  The kernel covers the `[64, 4096, 512]` output by 64 × 2 blocks of 2048 tokens of one expert; at each it multiplies the
  token block by the expert's transposed weight into a zero accumulator and adds the bias row (Proof/Body.lean: entry
  (r, o) of the block is the sum of the 512 products plus the bias entry — the narrowing of the factors is the identity
  and the zero adds nothing on the extended reals). Each block the kernel writes back is the block of `expertLinear` of
  the whole arrays at the place the output window names, and the blocks tile the array (Proof/Region.lean); the lines
  around the region are row-major re-layings (Proof/HostSide.lean); together the kernel's run ends with the result at
  `groupedLinear` of its arguments (Proof/KernelRun.lean).

  The reference takes one batched product over the expert axis, adds the bias broadcast along the tokens, and
  flattens: read at an index it is the same expression (Proof/RefSide.lean, over the generated reading of the
  reference's run). No step needs the inputs finite: the sum's terms are the same products on both sides, in the same
  index order, and `0 + s = s` holds for every extended real.

  The idealizing pass rewrote nothing in the kernel, so that it is the kernel's sanctioned idealization is immediate.
-/
import proofs.«147562_j8383776161863_2_alg».proof.Defs
import proofs.«147562_j8383776161863_2_alg».proof.Proof.Gen.Kernel
import proofs.«147562_j8383776161863_2_alg».proof.Proof.Gen.Kernel.Skeleton
import proofs.«147562_j8383776161863_2_alg».proof.Proof.Gen.Kernel.Launch
import proofs.«147562_j8383776161863_2_alg».proof.Proof.Gen.Kernel.Points
import proofs.«147562_j8383776161863_2_alg».proof.Proof.Gen.Kernel.Frame
import proofs.«147562_j8383776161863_2_alg».proof.Proof.Gen.KernelIdeal
import proofs.«147562_j8383776161863_2_alg».proof.Proof.Gen.KernelIdeal.Skeleton
import proofs.«147562_j8383776161863_2_alg».proof.Proof.Gen.KernelIdeal.Launch
import proofs.«147562_j8383776161863_2_alg».proof.Proof.Gen.KernelIdeal.Points
import proofs.«147562_j8383776161863_2_alg».proof.Proof.Gen.KernelIdeal.Frame
import proofs.«147562_j8383776161863_2_alg».proof.Proof.Gen.ReferenceIdeal
import proofs.«147562_j8383776161863_2_alg».proof.Proof.Gen.ReferenceIdeal.Run
import proofs.«147562_j8383776161863_2_alg».proof.Proof.Gen.ReferenceIdeal.Read
import proofs.«147562_j8383776161863_2_alg».proof.Proof.Gen.Pre_finite_inputs
import proofs.«147562_j8383776161863_2_alg».proof.Proof.KernelRun
import proofs.«147562_j8383776161863_2_alg».proof.Proof.RefSide
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at `groupedLinear` of the
    input, the weight and the bias (the expert counts are read by neither). -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq,
    Cert.ReferenceIdeal.RefValue.result_eq Cert.KernelIdeal.Gen.shapeCasts_S64x512_S64x1x512,
    (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
